-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x512x1024, .f32⟩
  | .local _ .vmem, ⟨9, _⟩ => ⟨S1x512x1024, .f32⟩
  | .local _ .vmem, ⟨10, _⟩ => ⟨S2048x1024, .bf16⟩
  | .local _ .vmem, ⟨11, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .bf16 = 32 ∨ (Rect.block (s := S8x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x2048x1024.size a
  hwx0_7 : ∀ i : grid0.Coords, EltTy.bits .f32 = 32 ∨ (Rect.block (s := S8x2048x1024) S1x512x1024.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Pieces.lean ====
/-
  What the body leaves behind at a grid point, as values.

  The kernel's body has two cases. At the first query tile of a batch it first computes, from the batch's whole block of
  the input and the key and value weights and biases, the batch's key matrix and value matrix and stores them whole
  into the two scratch buffers; at the other three tiles it leaves the scratch alone. In both cases it then computes one
  [512, 1024] output tile from the tile's 512 rows of the input block, the query weights and bias, and the two scratch
  buffers as they then stand. Each store covers its buffer whole, so what a buffer holds afterwards is the one
  stored value: the key matrix, the value matrix, and the output tile as functions of the blocks (and, at the later
  tiles, of what the scratch held before).
-/
import proofs.«116164_j44032004718713_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of the batch's input block that the query tile of the grid point reads: rows
    `512·qi … 512·qi + 511`. -/
def qTile (i : grid0.Coords) (x0 : Vec F S1x2048x1024 .bf16) : Vec F S1x512x1024 .bf16 :=
  View.ld x0 (Rect.unit (s := S1x2048x1024) (k0_off1 i) S1x512x1024.size (k0_off1_inb i))

/-- At a batch's first tile the key scratch ends holding the key matrix of the batch's block. -/
theorem scrK_A (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S1x2048x1024 .bf16) (x1 : Vec F S1024x1024 .bf16) (x2 : Vec F S1024 .f32) (x3 : Vec F S1024x1024 .bf16) (x4 : Vec F S1024 .f32) (x5 : Vec F S1024x1024 .bf16) (x6 : Vec F S1024 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay2 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x2048x1024) hz3, View.ld_unit_zero (S := S1024x1024) hz2, View.ld_unit_zero (S := S1024) hz1]

/-- At a batch's first tile the value scratch ends holding the value matrix of the batch's block. -/
theorem scrV_A (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S1x2048x1024 .bf16) (x1 : Vec F S1024x1024 .bf16) (x2 : Vec F S1024 .f32) (x3 : Vec F S1024x1024 .bf16) (x4 : Vec F S1024 .f32) (x5 : Vec F S1024x1024 .bf16) (x6 : Vec F S1024 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay3 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg7.read_unread, harg8.read_unread,
    View.ld_unit_zero (S := S1x2048x1024) hz3, View.ld_unit_zero (S := S1024x1024) hz2, View.ld_unit_zero (S := S1024) hz1]

/-- At a batch's first tile the output tile is computed against the key and value matrices just stored. -/
theorem out_A (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : cond0_0 i)
    (x0 : Vec F S1x2048x1024 .bf16) (x1 : Vec F S1024x1024 .bf16) (x2 : Vec F S1024 .f32) (x3 : Vec F S1024x1024 .bf16) (x4 : Vec F S1024 .f32) (x5 : Vec F S1024x1024 .bf16) (x6 : Vec F S1024 .f32) :
    out0_A_7 c i arg2 harg2 arg3 harg3 arg4 harg4 arg5 harg5 arg6 harg6 arg7 harg7 arg8 harg8 arg9 harg9 arg10 harg10 arg11 harg11 hc0 x0 x1 x2 x3 x4 x5 x6 = k0_pay4 (qTile i x0) x1 x2 (k0_pay2 x0 x3 x4) (k0_pay3 x0 x5 x6) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread, View.readCov_unit_zero (S := S2048x1024) _ hz2,
    View.ld_unit_zero (S := S1x2048x1024) hz3, View.ld_unit_zero (S := S1024x1024) hz2, View.ld_unit_zero (S := S1024) hz1]
  rfl

/-- At a later tile the output tile is computed against what the scratch buffers held before the point. -/
theorem out_B (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1x512x1024 .f32) (harg9 : arg9.IsWhole) (arg10 : Memref sig .tc .vmem S2048x1024 .bf16) (harg10 : arg10.IsWhole) (arg11 : Memref sig .tc .vmem S2048x1024 .bf16) (harg11 : arg11.IsWhole) (hc0 : ¬cond0_0 i)
    (x0 : Vec F S1x2048x1024 .bf16) (x1 : Vec F S1024x1024 .bf16) (x2 : Vec F S1024 .f32) (x3 : Vec F S1024x1024 .bf16) (x4 : Vec F S1024 .f32) (x5 : Vec F S1024x1024 .bf16) (x6 : Vec F S1024 .f32) (xs0 : Vec F S2048x1024 .bf16) (xs1 : Vec F S2048x1024 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay4 (qTile i x0) x1 x2 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg3.read_unread, harg4.read_unread, harg10.read_unread, harg11.read_unread,
    View.ld_unit_zero (S := S2048x1024) hz2,
    View.ld_unit_zero (S := S1x2048x1024) hz3, View.ld_unit_zero (S := S1024x1024) hz2, View.ld_unit_zero (S := S1024) hz1]
  rfl

end Cert.KernelIdeal.Pieces

end
-- ==== Proof.Contractions.lean ====
/-
  The kernel's four matrix products at the ideal values, each read at an output coordinate as a plain sum over the
  contracted coordinate: a projection of the batch's 2048 rows, a projection of a tile's 512 rows (both `rows × weights`),
  the scores of a tile's queries against the 2048 keys (both operands contracted along their feature axis), and the
  weighted sum of the 2048 value rows.
-/
import proofs.«116164_j44032004718713_2_alg».proof.Proof.Gen.KernelIdeal
import Idealize.ShloMosaic.Lib.ValueIdx
import Idealize.ShloMosaic.PureOps.Ideal.Laws

noncomputable section

namespace Cert.KernelIdeal.Contractions

open Cert.KernelIdeal Idealize.ShloMosaic Idealize.ShloMosaic.ValueIdx

/-- The contraction `dot_S2048x1024_S1024x1024_S2048x1024_1_0_0_1_n_n` read at `(p, q)`: the sum over the contracted coordinate. -/
theorem D1_lhs_free (i : S2048x1024.Idx) (z : dot_S2048x1024_S1024x1024_S2048x1024_1_0_0_1_n_n.contr.Idx) : (dot_S2048x1024_S1024x1024_S2048x1024_1_0_0_1_n_n.lhsIdx i z 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem D1_rhs_free (i : S2048x1024.Idx) (z : dot_S2048x1024_S1024x1024_S2048x1024_1_0_0_1_n_n.contr.Idx) : (dot_S2048x1024_S1024x1024_S2048x1024_1_0_0_1_n_n.rhsIdx i z 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
theorem D1_apply {φ₁ φ₂ : FTy} (lhs : FVec Ideal S2048x1024 φ₁) (rhs : FVec Ideal S1024x1024 φ₂) (p : Fin 2048) (q : Fin 1024) :
    matmul dot_S2048x1024_S1024x1024_S2048x1024_1_0_0_1_n_n none lhs rhs (constant S2048x1024 .f32 0x00000000#32) (ix2 p q) = ∑ k : Fin 1024, lhs (ix2 p k) * rhs (ix2 k q) := by
  show FloatOps.matmul dot_S2048x1024_S1024x1024_S2048x1024_1_0_0_1_n_n none lhs rhs (constant S2048x1024 .f32 0x00000000#32) (ix2 p q) = _
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q) ((contrEquiv1 dot_S2048x1024_S1024x1024_S2048x1024_1_0_0_1_n_n 1024 rfl rfl).symm k) = ix2 p k := funext fun a => Fin.ext (by
    match a with
    | ⟨0, _⟩ => exact D1_lhs_free _ _
    | ⟨1, _⟩ => exact (dot_S2048x1024_S1024x1024_S2048x1024_1_0_0_1_n_n.lhsIdx_val_of_single rfl _ _).trans hk)
  have er : dot_S2048x1024_S1024x1024_S2048x1024_1_0_0_1_n_n.rhsIdx (ix2 p q) ((contrEquiv1 dot_S2048x1024_S1024x1024_S2048x1024_1_0_0_1_n_n 1024 rfl rfl).symm k) = ix2 k q := funext fun a => Fin.ext (by
    match a with
    | ⟨1, _⟩ => exact D1_rhs_free _ _
    | ⟨0, _⟩ => exact (dot_S2048x1024_S1024x1024_S2048x1024_1_0_0_1_n_n.rhsIdx_val_of_single rfl _ _).trans hk)
  rw [el, er]

/-- The contraction `dot_S512x1024_S1024x1024_S512x1024_1_0_0_1_n_n` read at `(p, q)`: the sum over the contracted coordinate. -/
theorem D2_lhs_free (i : S512x1024.Idx) (z : dot_S512x1024_S1024x1024_S512x1024_1_0_0_1_n_n.contr.Idx) : (dot_S512x1024_S1024x1024_S512x1024_1_0_0_1_n_n.lhsIdx i z 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem D2_rhs_free (i : S512x1024.Idx) (z : dot_S512x1024_S1024x1024_S512x1024_1_0_0_1_n_n.contr.Idx) : (dot_S512x1024_S1024x1024_S512x1024_1_0_0_1_n_n.rhsIdx i z 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem D2_apply {φ₁ φ₂ : FTy} (lhs : FVec Ideal S512x1024 φ₁) (rhs : FVec Ideal S1024x1024 φ₂) (p : Fin 512) (q : Fin 1024) :
    matmul dot_S512x1024_S1024x1024_S512x1024_1_0_0_1_n_n none lhs rhs (constant S512x1024 .f32 0x00000000#32) (ix2 p q) = ∑ k : Fin 1024, lhs (ix2 p k) * rhs (ix2 k q) := by
  show FloatOps.matmul dot_S512x1024_S1024x1024_S512x1024_1_0_0_1_n_n none lhs rhs (constant S512x1024 .f32 0x00000000#32) (ix2 p q) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact D2_lhs_free _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨1, _⟩ => exact D2_rhs_free _ _
    | ⟨0, _⟩ => exact (dot_S512x1024_S1024x1024_S512x1024_1_0_0_1_n_n.rhsIdx_val_of_single rfl _ _).trans hk)
  rw [el, er]

/-- The contraction `dot_S512x1024_S2048x1024_S512x2048_1_1_0_0_n_n` read at `(p, q)`: the sum over the contracted coordinate. -/
theorem D3_lhs_free (i : S512x2048.Idx) (z : dot_S512x1024_S2048x1024_S512x2048_1_1_0_0_n_n.contr.Idx) : (dot_S512x1024_S2048x1024_S512x2048_1_1_0_0_n_n.lhsIdx i z 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem D3_rhs_free (i : S512x2048.Idx) (z : dot_S512x1024_S2048x1024_S512x2048_1_1_0_0_n_n.contr.Idx) : (dot_S512x1024_S2048x1024_S512x2048_1_1_0_0_n_n.rhsIdx i z 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem D3_apply {φ₁ φ₂ : FTy} (lhs : FVec Ideal S512x1024 φ₁) (rhs : FVec Ideal S2048x1024 φ₂) (p : Fin 512) (q : Fin 2048) :
    matmul dot_S512x1024_S2048x1024_S512x2048_1_1_0_0_n_n none lhs rhs (constant S512x2048 .f32 0x00000000#32) (ix2 p q) = ∑ k : Fin 1024, lhs (ix2 p k) * rhs (ix2 q k) := by
  show FloatOps.matmul dot_S512x1024_S2048x1024_S512x2048_1_1_0_0_n_n none lhs rhs (constant S512x2048 .f32 0x00000000#32) (ix2 p q) = _
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p q) ((contrEquiv1 dot_S512x1024_S2048x1024_S512x2048_1_1_0_0_n_n 1024 rfl rfl).symm k) = ix2 p k := funext fun a => Fin.ext (by
    match a with
    | ⟨0, _⟩ => exact D3_lhs_free _ _
    | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p q) ((contrEquiv1 dot_S512x1024_S2048x1024_S512x2048_1_1_0_0_n_n 1024 rfl rfl).symm k) = ix2 q k := funext fun a => Fin.ext (by
    match a with
    | ⟨0, _⟩ => exact D3_rhs_free _ _
    | ⟨1, _⟩ => exact (dot_S512x1024_S2048x1024_S512x2048_1_1_0_0_n_n.rhsIdx_val_of_single rfl _ _).trans hk)
  rw [el, er]

/-- The contraction `dot_S512x2048_S2048x1024_S512x1024_1_0_0_1_n_n` read at `(p, q)`: the sum over the contracted coordinate. -/
theorem D4_lhs_free (i : S512x1024.Idx) (z : dot_S512x2048_S2048x1024_S512x1024_1_0_0_1_n_n.contr.Idx) : (dot_S512x2048_S2048x1024_S512x1024_1_0_0_1_n_n.lhsIdx i z 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem D4_rhs_free (i : S512x1024.Idx) (z : dot_S512x2048_S2048x1024_S512x1024_1_0_0_1_n_n.contr.Idx) : (dot_S512x2048_S2048x1024_S512x1024_1_0_0_1_n_n.rhsIdx i z 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
theorem D4_apply {φ₁ φ₂ : FTy} (lhs : FVec Ideal S512x2048 φ₁) (rhs : FVec Ideal S2048x1024 φ₂) (p : Fin 512) (q : Fin 1024) :
    matmul dot_S512x2048_S2048x1024_S512x1024_1_0_0_1_n_n none lhs rhs (constant S512x1024 .f32 0x00000000#32) (ix2 p q) = ∑ k : Fin 2048, lhs (ix2 p k) * rhs (ix2 k q) := by
  show FloatOps.matmul dot_S512x2048_S2048x1024_S512x1024_1_0_0_1_n_n none lhs rhs (constant S512x1024 .f32 0x00000000#32) (ix2 p q) = _
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k := funext fun a => Fin.ext (by
    match a with
    | ⟨0, _⟩ => exact D4_lhs_free _ _
    | ⟨1, _⟩ => exact (dot_S512x2048_S2048x1024_S512x1024_1_0_0_1_n_n.lhsIdx_val_of_single rfl _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q := funext fun a => Fin.ext (by
    match a with
    | ⟨1, _⟩ => exact D4_rhs_free _ _
    | ⟨0, _⟩ => exact (dot_S512x2048_S2048x1024_S512x1024_1_0_0_1_n_n.rhsIdx_val_of_single rfl _ _).trans hk)
  rw [el, er]

end Cert.KernelIdeal.Contractions

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibSoftmaxRow.lean ====
/-
  One row of softmax attention on the extended reals: normalising the weights before or after the weighted sum.

  A row of scores `t k` (k over the keys) and a column of values `v k` give the output
  `∑ₖ softmax(t)ₖ · vₖ`, where `softmax(t)ₖ = exp (tₖ - M) / L`, `M = maxₖ tₖ` (taken from `-∞`) and `L = ∑ₖ exp (tₖ - M)`.
  The quotient by `L` may be taken of every weight before the weighted sum (`attnNormalised`), or once of the weighted
  sum (`attnDeferred`): on the extended reals the two agree as soon as every score and every value is a real number
  (`attnNormalised_eq_attnDeferred`), because then `M` is a real (a maximum of at least one real), every weight
  `exp (tₖ - M)` is a positive real, `L` is a positive real, and a quotient by a nonzero real is the product with its
  reciprocal, which distributes over a finite sum of reals. (At an infinite entry the two can differ, which is why the
  hypothesis is there.) Also: `IsReal`, the extended reals that are real numbers, closed under sums and products; the
  coercion of a finite sum; the f32 pattern of `-∞` is `⊥`. Nothing here mentions a program.
-/
import Idealize.ShloMosaic.PureOps.Ideal
import Idealize.ShloMosaic.PureOps.Ideal.Laws

noncomputable section

namespace Cert.SoftmaxRow

open Idealize.ShloMosaic

/-! ## Reals inside the extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The pattern of `-∞` -/

/-- The pattern of `-∞` is the bottom of the extended reals. -/
theorem ofBits_negInf : Ideal.ofBits .f32 0xFF800000#32 = ⊥ := by
  simp [Ideal.ofBits, Ideal.ieee]

/-! ## One row -/

variable {n : ℕ}

/-- The row's maximum, from `-∞`. -/
def rowMax (t : Fin n → EReal) : EReal := (Finset.univ : Finset (Fin n)).fold max ⊥ t

/-- The unnormalised weight of key `k`. -/
def rowWt (t : Fin n → EReal) (k : Fin n) : EReal := Ideal.exp (t k - rowMax t)

/-- The normaliser: the sum of the weights. -/
def rowDen (t : Fin n → EReal) : EReal := ∑ k, rowWt t k

/-- The weighted sum of the values, divided once by the normaliser. -/
def attnDeferred (t v : Fin n → EReal) : EReal := Ideal.div (∑ k, rowWt t k * v k) (rowDen t)

/-- Every weight divided by the normaliser, then the weighted sum. -/
def attnNormalised (t v : Fin n → EReal) : EReal := ∑ k, Ideal.div (rowWt t k) (rowDen t) * v k

/-- The maximum of at least one real is a real. -/
theorem rowMax_coe (hn : 0 < n) (t : Fin n → ℝ) : IsReal (rowMax fun k => (t k : EReal)) := by
  unfold rowMax
  have hlt : (Finset.univ : Finset (Fin n)).fold max (⊥ : EReal) (fun k => (t k : EReal)) < ⊤ :=
    (Finset.fold_max_lt _).mpr ⟨bot_lt_top, fun k _ => EReal.coe_lt_top _⟩
  have hge : ((t ⟨0, hn⟩ : ℝ) : EReal) ≤ (Finset.univ : Finset (Fin n)).fold max (⊥ : EReal) (fun k => (t k : EReal)) :=
    (Finset.le_fold_max _).mpr (Or.inr ⟨⟨0, hn⟩, Finset.mem_univ _, le_rfl⟩)
  have hne : (Finset.univ : Finset (Fin n)).fold max (⊥ : EReal) (fun k => (t k : EReal)) ≠ ⊥ := fun h => by
    rw [h] at hge
    exact EReal.coe_ne_bot _ (le_bot_iff.mp hge)
  exact ⟨_, (EReal.coe_toReal hlt.ne hne).symm⟩

/-- THE LAW: with real scores and real values, normalising the weights first or the weighted sum afterwards
    is the same extended real. -/
theorem attnNormalised_eq_attnDeferred (hn : 0 < n) (t v : Fin n → EReal) (ht : ∀ k, IsReal (t k)) (hv : ∀ k, IsReal (v k)) :
    attnNormalised t v = attnDeferred t v := by
  choose t' ht' using ht
  choose v' hv' using hv
  obtain rfl : t = fun k => (t' k : EReal) := funext ht'
  obtain rfl : v = fun k => (v' k : EReal) := funext hv'
  obtain ⟨M, hM⟩ := rowMax_coe hn t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin n, Real.exp (t' k - M)) ≠ 0 :=
    (Finset.sum_pos (fun k _ => Real.exp_pos _) ⟨⟨0, hn⟩, Finset.mem_univ _⟩).ne'
  unfold attnNormalised attnDeferred
  rw [hL, Ideal.div_coe hpos]
  simp only [hw, Ideal.div_coe hpos, ← EReal.coe_mul, ← coe_sum]
  congr 1
  rw [Finset.sum_mul]
  exact Finset.sum_congr rfl fun k _ => by ring

end Cert.SoftmaxRow

end
-- ==== Proof.Payloads.lean ====
/-
  The body's three computed values at the ideal values, read at coordinates.

  The key (or value) matrix of a batch is `block · W + b`: at `(s, h)` the sum over `d` of the block's row `s` times
  the weight's column `h`, plus the bias at `h`. The output tile at `(r, h)` is one row of attention: the scores of the
  tile's query row `r` (itself a projection of the tile's input row) against the 2048 rows of the key matrix, each
  multiplied by `1/32`; the row maximum from `-∞`; the exponentials of the differences; their sum; and the weighted sum
  of the value matrix's column `h`, divided once by that sum.
-/
import proofs.«116164_j44032004718713_2_alg».proof.Proof.Gen.KernelIdeal.Frame
import proofs.«116164_j44032004718713_2_alg».proof.Proof.Contractions
import proofs.«116164_j44032004718713_2_alg».proof.Proof.LibRowOps
import proofs.«116164_j44032004718713_2_alg».proof.Proof.LibSoftmaxRow
import Idealize.ShloMosaic.Lib.ValueLayout

noncomputable section

namespace Cert.KernelIdeal.Payloads

open Cert.KernelIdeal Cert.KernelIdeal.Gen Cert.KernelIdeal.Contractions Idealize.ShloMosaic Idealize.ShloMosaic.ValueIdx
open Cert.SoftmaxRow Cert.RowOps

/-- A bias vector cast to a row and broadcast down `a` rows reads, at `(p, c)`, the bias at `c`. -/
theorem biasRows_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- The key matrix of a block: `block · Wk + bk`. -/
theorem pay2_apply (x0 : FVec Ideal S1x2048x1024 .bf16) (x3 : FVec Ideal S1024x1024 .bf16) (x4 : FVec Ideal S1024 .f32)
    (s : Fin 2048) (h : Fin 1024) :
    k0_pay2 x0 x3 x4 (ix2 s h) = (∑ d : Fin 1024, x0 (ix3 (0 : Fin 1) s d) * x3 (ix2 d h)) + x4 (ix1 h) := by
  unfold k0_pay2 k0_pay1
  simp only [shapeCast_self]
  show (matmul dot_S2048x1024_S1024x1024_S2048x1024_1_0_0_1_n_n none
        (shapeCast S2048x1024 x0 shapeCasts_S1x2048x1024_S2048x1024 : FVec Ideal S2048x1024 .bf16) x3
        (constant S2048x1024 .f32 0x00000000#32) : FVec Ideal S2048x1024 .f32) (ix2 s h)
    + (broadcastTo S2048x1024 (shapeCast S1x1024 x4 shapeCasts_S1024_S1x1024 : FVec Ideal S1x1024 .f32) broadcasts_S1x1024_S2048x1024
        : FVec Ideal S2048x1024 .f32) (ix2 s h) = _
  rw [D1_apply, biasRows_apply]
  simp only [shapeCast_1ab_ab_apply]

/-- The value matrix of a block: `block · Wv + bv`. -/
theorem pay3_apply (x0 : FVec Ideal S1x2048x1024 .bf16) (x5 : FVec Ideal S1024x1024 .bf16) (x6 : FVec Ideal S1024 .f32)
    (s : Fin 2048) (h : Fin 1024) :
    k0_pay3 x0 x5 x6 (ix2 s h) = (∑ d : Fin 1024, x0 (ix3 (0 : Fin 1) s d) * x5 (ix2 d h)) + x6 (ix1 h) := by
  unfold k0_pay3 k0_pay1
  simp only [shapeCast_self]
  show (matmul dot_S2048x1024_S1024x1024_S2048x1024_1_0_0_1_n_n none
        (shapeCast S2048x1024 x0 shapeCasts_S1x2048x1024_S2048x1024 : FVec Ideal S2048x1024 .bf16) x5
        (constant S2048x1024 .f32 0x00000000#32) : FVec Ideal S2048x1024 .f32) (ix2 s h)
    + (broadcastTo S2048x1024 (shapeCast S1x1024 x6 shapeCasts_S1024_S1x1024 : FVec Ideal S1x1024 .f32) broadcasts_S1x1024_S2048x1024
        : FVec Ideal S2048x1024 .f32) (ix2 s h) = _
  rw [D1_apply, biasRows_apply]
  simp only [shapeCast_1ab_ab_apply]

/-- The tile's queries: the projection of its 512 input rows. -/
def tileQ (v6 : FVec Ideal S1x512x1024 .bf16) (v8 : FVec Ideal S1024x1024 .bf16) (v11 : FVec Ideal S1024 .f32) : FVec Ideal S512x1024 .bf16 :=
  truncf .bf16 (addf (matmul dot_S512x1024_S1024x1024_S512x1024_1_0_0_1_n_n none
      (shapeCast S512x1024 v6 shapeCasts_S1x512x1024_S512x1024 : FVec Ideal S512x1024 .bf16)
      (shapeCast S1024x1024 v8 shapeCasts_S1024x1024_S1024x1024 : FVec Ideal S1024x1024 .bf16) (constant S512x1024 .f32 0x00000000#32))
    (broadcastTo S512x1024 (shapeCast S1x1024 v11 shapeCasts_S1024_S1x1024 : FVec Ideal S1x1024 .f32) broadcasts_S1x1024_S512x1024)) bitsLt_bf16_f32

/-- The tile's scaled scores against the 2048 keys. -/
def tileS (q : FVec Ideal S512x1024 .bf16) (v16 : FVec Ideal S2048x1024 .bf16) : FVec Ideal S512x2048 .f32 :=
  mulf (matmul dot_S512x1024_S2048x1024_S512x2048_1_1_0_0_n_n none q v16 (constant S512x2048 .f32 0x00000000#32))
    (broadcast S512x2048 (Scalar.ofBits (F := Ideal) .f32 0x3D000000#32))

/-- The row maxima of the scores, from `-∞`. -/
def tileM (s : FVec Ideal S512x2048 .f32) : FVec Ideal S512 .f32 :=
  multiReduction .maximumf [1] S512 s 0xFF800000#32 reduces_S512x2048_S512 (.inl rfl) rfl

/-- The unnormalised weights of the tile: exponentials of the scores less their row maxima. -/
def tileP (s : FVec Ideal S512x2048 .f32) : FVec Ideal S512x2048 .f32 :=
  exp (subf s (broadcastTo S512x2048 (shapeCast S512x1 (tileM s) shapeCasts_S512_S512x1 : FVec Ideal S512x1 .f32) broadcasts_S512x1_S512x2048))

/-- The row sums of the weights. -/
def tileL (p : FVec Ideal S512x2048 .f32) : FVec Ideal S512 .f32 :=
  multiReduction .add [1] S512 p 0x00000000#32 reduces_S512x2048_S512 (.inl rfl) rfl

/-- The tile's output: the weighted sums of the value rows, each row divided by its normaliser. -/
def tileO (s : FVec Ideal S512x2048 .f32) (v17 : FVec Ideal S2048x1024 .bf16) : FVec Ideal S1x512x1024 .f32 :=
  shapeCast S1x512x1024 (divf (matmul dot_S512x2048_S2048x1024_S512x1024_1_0_0_1_n_n none
      (truncf .bf16 (tileP s) bitsLt_bf16_f32 : FVec Ideal S512x2048 .bf16) v17 (constant S512x1024 .f32 0x00000000#32))
    (broadcastTo S512x1024 (shapeCast S512x1 (tileL (tileP s)) shapeCasts_S512_S512x1 : FVec Ideal S512x1 .f32) broadcasts_S512x1_S512x1024))
    shapeCasts_S512x1024_S1x512x1024

/-- The body's output value is these stages composed. -/
theorem pay4_eq (v6 : FVec Ideal S1x512x1024 .bf16) (v8 : FVec Ideal S1024x1024 .bf16) (v11 : FVec Ideal S1024 .f32)
    (v16 v17 : FVec Ideal S2048x1024 .bf16) : k0_pay4 v6 v8 v11 v16 v17 = tileO (tileS (tileQ v6 v8 v11) v16) v17 := rfl

theorem tileQ_apply (v6 : FVec Ideal S1x512x1024 .bf16) (v8 : FVec Ideal S1024x1024 .bf16) (v11 : FVec Ideal S1024 .f32)
    (r : Fin 512) (h : Fin 1024) :
    tileQ v6 v8 v11 (ix2 r h) = (∑ d : Fin 1024, v6 (ix3 (0 : Fin 1) r d) * v8 (ix2 d h)) + v11 (ix1 h) := by
  unfold tileQ
  simp only [shapeCast_self]
  show (matmul dot_S512x1024_S1024x1024_S512x1024_1_0_0_1_n_n none
        (shapeCast S512x1024 v6 shapeCasts_S1x512x1024_S512x1024 : FVec Ideal S512x1024 .bf16) v8
        (constant S512x1024 .f32 0x00000000#32) : FVec Ideal S512x1024 .f32) (ix2 r h)
    + (broadcastTo S512x1024 (shapeCast S1x1024 v11 shapeCasts_S1024_S1x1024 : FVec Ideal S1x1024 .f32) broadcasts_S1x1024_S512x1024
        : FVec Ideal S512x1024 .f32) (ix2 r h) = _
  rw [D2_apply, biasRows_apply]
  simp only [shapeCast_1ab_ab_apply]

theorem tileS_apply (q : FVec Ideal S512x1024 .bf16) (v16 : FVec Ideal S2048x1024 .bf16) (r : Fin 512) (k : Fin 2048) :
    tileS q v16 (ix2 r k) = (∑ h : Fin 1024, q (ix2 r h) * v16 (ix2 k h)) * Ideal.ofBits .f32 0x3D000000#32 :=
  congrArg (· * Ideal.ofBits .f32 0x3D000000#32) (D3_apply q v16 r k)

theorem tileM_apply (s : FVec Ideal S512x2048 .f32) (r : Fin 512) : tileM s (ix1 r) = rowMax (fun k => s (ix2 r k)) :=
  (laneMax_apply s 0xFF800000#32 reduces_S512x2048_S512 (.inl rfl) rfl r).trans (by unfold rowMax; rw [ofBits_negInf])

theorem tileP_apply (s : FVec Ideal S512x2048 .f32) (r : Fin 512) (k : Fin 2048) :
    tileP s (ix2 r k) = rowWt (fun k => s (ix2 r k)) k :=
  congrArg (fun z => Ideal.exp (s (ix2 r k) - z))
    ((spreadColumn_apply (tileM s) shapeCasts_S512_S512x1 broadcasts_S512x1_S512x2048 r k).trans (tileM_apply s r))

theorem tileL_apply (p : FVec Ideal S512x2048 .f32) (r : Fin 512) : tileL p (ix1 r) = ∑ k : Fin 2048, p (ix2 r k) :=
  laneSum_apply p 0x00000000#32 reduces_S512x2048_S512 (.inl rfl) rfl r

theorem tileO_apply (s : FVec Ideal S512x2048 .f32) (v17 : FVec Ideal S2048x1024 .bf16) (u : Fin 1) (r : Fin 512) (h : Fin 1024) :
    tileO s v17 (ix3 u r h) = attnDeferred (fun k => s (ix2 r k)) (fun k => v17 (ix2 k h)) := by
  unfold tileO attnDeferred rowDen
  rw [shapeCast_ab_1ab_apply]
  refine (congrArg₂ Ideal.div (D4_apply (truncf .bf16 (tileP s) bitsLt_bf16_f32 : FVec Ideal S512x2048 .bf16) v17 r h)
    ((spreadColumn_apply (tileL (tileP s)) shapeCasts_S512_S512x1 broadcasts_S512x1_S512x1024 r h).trans (tileL_apply (tileP s) r))).trans ?_
  simp only [truncf_apply, tileP_apply]

/-- THE OUTPUT TILE at `(r, h)`: one row of attention, of the tile's query row `r` against the key matrix `v16`, over the
    value matrix's column `h`. -/
theorem pay4_apply (v6 : FVec Ideal S1x512x1024 .bf16) (v8 : FVec Ideal S1024x1024 .bf16) (v11 : FVec Ideal S1024 .f32)
    (v16 v17 : FVec Ideal S2048x1024 .bf16) (u : Fin 1) (r : Fin 512) (h : Fin 1024) :
    k0_pay4 (F := Ideal) v6 v8 v11 v16 v17 (ix3 u r h)
      = attnDeferred (fun k => (∑ h' : Fin 1024, ((∑ d : Fin 1024, v6 (ix3 (0 : Fin 1) r d) * v8 (ix2 d h')) + v11 (ix1 h')) * v16 (ix2 k h'))
          * Ideal.ofBits .f32 0x3D000000#32) (fun k => v17 (ix2 k h)) := by
  rw [pay4_eq, tileO_apply]
  simp only [tileS_apply, tileQ_apply]

end Cert.KernelIdeal.Payloads

end
-- ==== Proof.AttnSpec.lean ====
/-
  Single-head self-attention over a batch, index by index, as the two programs arrange it.

  For a batch `b`, the queries, keys and values are the projections `Q = x·Wq + bq`, `K = x·Wk + bk`,
  `V = x·Wv + bv` of the batch's 2048 input rows; the raw score of query `q` against key `k` is `∑ₕ Q(q,h)·K(k,h)`,
  scaled by `1/√1024`; the output row of query `q` is the softmax of its scores over the keys, applied to the
  values. One arrangement multiplies the raw score by `1/32` and divides the weighted sum of the values once by the
  normaliser (`attention`); the other divides the raw score by `√1024` and divides every weight by the normaliser
  before the weighted sum (`attentionNormalised`). With finite inputs the two are the same array of extended reals.
-/
import proofs.«116164_j44032004718713_2_alg».proof.Proof.LibSoftmaxRow
import Idealize.ShloMosaic.Lib.ValueIdx

noncomputable section

namespace Cert.AttnSpec

open Idealize.ShloMosaic Idealize.ShloMosaic.ValueIdx Cert.SoftmaxRow

/-! ## The scale: `√1024 = 32`, and `1/32` is an f32 -/

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Dividing by `√1024` is multiplying by `1/32`, at the infinities too. -/
theorem div_sqrt_1024 (x : EReal) :
    Ideal.div x (Ideal.sqrt (Ideal.ofBits .f32 0x44800000#32)) = x * Ideal.ofBits .f32 0x3D000000#32 := by
  rw [ofBits_1024, sqrt_1024, ofBits_inv32, Ideal.div_coe (by norm_num)]

/-! ## The arrays -/

/-- The shapes of the input `[8, 2048, 1024]`, of a weight matrix `[1024, 1024]` and of a bias `[1024]`. -/
abbrev SX : Shape := ⟨3, ![8, 2048, 1024]⟩
abbrev SW : Shape := ⟨2, ![1024, 1024]⟩
abbrev SB : Shape := ⟨1, ![1024]⟩

/-- A projection `x·W + b` at batch `bi`, row `s`, feature `h`. -/
def proj (x : SX.Idx → EReal) (w : SW.Idx → EReal) (b : SB.Idx → EReal) (bi : Fin 8) (s : Fin 2048) (h : Fin 1024) : EReal :=
  (∑ d : Fin 1024, x (ix3 bi s d) * w (ix2 d h)) + b (ix1 h)

/-- The raw score of query row `q` against key row `k` of batch `bi`. -/
def score (x : SX.Idx → EReal) (wq : SW.Idx → EReal) (bq : SB.Idx → EReal) (wk : SW.Idx → EReal) (bk : SB.Idx → EReal)
    (bi : Fin 8) (q k : Fin 2048) : EReal :=
  ∑ h : Fin 1024, proj x wq bq bi q h * proj x wk bk bi k h

/-- A projection, spelt out. -/
theorem proj_def (x : SX.Idx → EReal) (w : SW.Idx → EReal) (b : SB.Idx → EReal) (bi : Fin 8) (s : Fin 2048) (h : Fin 1024) :
    proj x w b bi s h = (∑ d : Fin 1024, x (ix3 bi s d) * w (ix2 d h)) + b (ix1 h) := by
  unfold proj; rfl

/-- A raw score, spelt out. -/
theorem score_def (x : SX.Idx → EReal) (wq : SW.Idx → EReal) (bq : SB.Idx → EReal) (wk : SW.Idx → EReal) (bk : SB.Idx → EReal)
    (bi : Fin 8) (q k : Fin 2048) :
    score x wq bq wk bk bi q k = ∑ h : Fin 1024, proj x wq bq bi q h * proj x wk bk bi k h := by
  unfold score; rfl

/-- Attention with the score multiplied by `1/32` and the normaliser divided out once, after the weighted sum. -/
def attention (x : SX.Idx → EReal) (wq : SW.Idx → EReal) (bq : SB.Idx → EReal) (wk : SW.Idx → EReal) (bk : SB.Idx → EReal)
    (wv : SW.Idx → EReal) (bv : SB.Idx → EReal) : SX.Idx → EReal := fun i =>
  attnDeferred (fun k => score x wq bq wk bk (i 0) (i 1) k * Ideal.ofBits .f32 0x3D000000#32)
    (fun k => proj x wv bv (i 0) k (i 2))

/-- Attention with the score divided by `√1024` and every weight divided by the normaliser before the weighted sum. -/
def attentionNormalised (x : SX.Idx → EReal) (wq : SW.Idx → EReal) (bq : SB.Idx → EReal) (wk : SW.Idx → EReal) (bk : SB.Idx → EReal)
    (wv : SW.Idx → EReal) (bv : SB.Idx → EReal) : SX.Idx → EReal := fun i =>
  attnNormalised (fun k => Ideal.div (score x wq bq wk bk (i 0) (i 1) k) (Ideal.sqrt (Ideal.ofBits .f32 0x44800000#32)))
    (fun k => proj x wv bv (i 0) k (i 2))

theorem isReal_proj {x : SX.Idx → EReal} {w : SW.Idx → EReal} {b : SB.Idx → EReal} (hx : ∀ i, IsReal (x i))
    (hw : ∀ i, IsReal (w i)) (hb : ∀ i, IsReal (b i)) (bi : Fin 8) (s : Fin 2048) (h : Fin 1024) : IsReal (proj x w b bi s h) :=
  (isReal_sum _ _ fun d => (hx _).mul (hw _)).add (hb _)

/-- With finite inputs the two arrangements are one array. -/
theorem attentionNormalised_eq_attention {x : SX.Idx → EReal} {wq : SW.Idx → EReal} {bq : SB.Idx → EReal} {wk : SW.Idx → EReal}
    {bk : SB.Idx → EReal} {wv : SW.Idx → EReal} {bv : SB.Idx → EReal} (hx : ∀ i, IsReal (x i)) (hwq : ∀ i, IsReal (wq i))
    (hbq : ∀ i, IsReal (bq i)) (hwk : ∀ i, IsReal (wk i)) (hbk : ∀ i, IsReal (bk i)) (hwv : ∀ i, IsReal (wv i))
    (hbv : ∀ i, IsReal (bv i)) :
    attentionNormalised x wq bq wk bk wv bv = attention x wq bq wk bk wv bv := by
  funext i
  unfold attentionNormalised attention
  simp only [div_sqrt_1024]
  refine attnNormalised_eq_attnDeferred (by decide) _ _ (fun k => ?_) (fun k => isReal_proj hx hwv hbv _ _ _)
  refine IsReal.mul (isReal_sum _ _ fun h => (isReal_proj hx hwq hbq _ _ _).mul (isReal_proj hx hwk hbk _ _ _)) ?_
  rw [ofBits_inv32]
  exact isReal_coe _

end Cert.AttnSpec

end
-- ==== Proof.KernelValue.lean ====
/-
  The kernel's result array at the ideal values is single-head attention of the argument arrays.

  The grid has 8 × 4 points: point `t` is query tile `t mod 4` of batch `t / 4`. The input's window gives the body the
  batch's whole [2048, 1024] block at every point of the batch; the weights and biases are whole at every point; the
  output's window is the [512, 1024] tile `(t / 4, t mod 4)`. The key and value scratch are filled at a batch's first
  point and left alone at its other three, so after ANY point they hold the key and value matrices of that point's batch
  (an induction over the points). Hence the tile written back at point `t` is, row by row, attention of the tile's
  query rows against the batch's keys and values, which is the block `(t / 4, t mod 4)` of the whole attention array; the
  32 tiles cover the result array.
-/
import proofs.«116164_j44032004718713_2_alg».proof.Proof.Gen.KernelIdeal.Value
import proofs.«116164_j44032004718713_2_alg».proof.Proof.Pieces
import proofs.«116164_j44032004718713_2_alg».proof.Proof.Payloads
import proofs.«116164_j44032004718713_2_alg».proof.Proof.AttnSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen Cert.KernelIdeal.Pieces Cert.KernelIdeal.Payloads Cert.AttnSpec Cert.SoftmaxRow

variable (m : (ℓ : Loc nD τ sig) → Buf (Elt Ideal) ℓ) (ρ : Dev nD → PrngReg)

/-! ## Where each window's block sits, decided over the 32 points -/

theorem idx_x : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx_wq : ∀ t : Fin cfg0.N, win0_1.index t (0 : Fin 2) = 0 ∧ win0_1.index t (1 : Fin 2) = 0 :=
  (by decide +kernel : ∀ t : Fin grid0.N, _)
theorem idx_bq : ∀ t : Fin cfg0.N, win0_2.index t (0 : Fin 1) = 0 :=
  (by decide +kernel : ∀ t : Fin grid0.N, _)
theorem idx_wk : ∀ t : Fin cfg0.N, win0_3.index t (0 : Fin 2) = 0 ∧ win0_3.index t (1 : Fin 2) = 0 :=
  (by decide +kernel : ∀ t : Fin grid0.N, _)
theorem idx_bk : ∀ t : Fin cfg0.N, win0_4.index t (0 : Fin 1) = 0 :=
  (by decide +kernel : ∀ t : Fin grid0.N, _)
theorem idx_wv : ∀ t : Fin cfg0.N, win0_5.index t (0 : Fin 2) = 0 ∧ win0_5.index t (1 : Fin 2) = 0 :=
  (by decide +kernel : ∀ t : Fin grid0.N, _)
theorem idx_bv : ∀ t : Fin cfg0.N, win0_6.index t (0 : Fin 1) = 0 :=
  (by decide +kernel : ∀ t : Fin grid0.N, _)
theorem idx_o : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)
/-- The query tile's rows start at row `512 · (t mod 4)` of the batch's block. -/
theorem off_q : ∀ t : Fin cfg0.N, k0_off1 (grid0.coords t) (0 : Fin 3) = 0 ∧ k0_off1 (grid0.coords t) (1 : Fin 3) = 512 * (t.val % 4)
    ∧ k0_off1 (grid0.coords t) (2 : Fin 3) = 0 :=
  (by decide +kernel : ∀ t : Fin grid0.N, _)

/-! ## The arrays the region finds: the arguments, their format changed (the identity at the ideal values) -/

theorem V_x (c : Dev nD) : (V m c main_v0 : S8x2048x1024.Idx → EReal) = m ((c : Thread nD τ).loc main_arg0) := by
  dsimp only [Gen.V, Gen.hostOps0]; after_results; rfl
theorem V_wq (c : Dev nD) : (V m c main_v1 : S1024x1024.Idx → EReal) = m ((c : Thread nD τ).loc main_arg1) := by
  dsimp only [Gen.V, Gen.hostOps0]; after_results; rfl
theorem V_wk (c : Dev nD) : (V m c main_v2 : S1024x1024.Idx → EReal) = m ((c : Thread nD τ).loc main_arg3) := by
  dsimp only [Gen.V, Gen.hostOps0]; after_results; rfl
theorem V_wv (c : Dev nD) : (V m c main_v3 : S1024x1024.Idx → EReal) = m ((c : Thread nD τ).loc main_arg5) := by
  dsimp only [Gen.V, Gen.hostOps0]; after_results; rfl

/-! ## The blocks read at coordinates -/

/-- The batch of point `t`. -/
def batchOf (t : Fin cfg0.N) : Fin 8 := ⟨t.val / 4, by have := t.isLt; have : cfg0.N = 32 := N_0; omega⟩

/-- The input's block at point `t` is the batch's 2048 rows. -/
theorem blk_x (c : Dev nD) (t : Fin cfg0.N) (s : Fin 2048) (d : Fin 1024) :
    (iblk m c 0 t : FVec Ideal S1x2048x1024 .bf16) (ix3 (0 : Fin 1) s d) = m ((c : Thread nD τ).loc main_arg0) (ix3 (batchOf t) s d) := by
  obtain ⟨e0, e1, e2⟩ := idx_x t
  show V m c main_v0 (((cfg0.win 0).blk t).view.emb (ix3 (0 : Fin 1) s d)) = _
  refine (congrFun (V_x m c) _).trans (congrArg _ (funext fun a => Fin.ext ?_))
  match a with
  | ⟨0, _⟩ => show win0_0.index t (0 : Fin 3) * 1 + 1 * 0 = t.val / 4; omega
  | ⟨1, _⟩ => show win0_0.index t (1 : Fin 3) * 2048 + 1 * s.val = s.val; omega
  | ⟨2, _⟩ => show win0_0.index t (2 : Fin 3) * 1024 + 1 * d.val = d.val; omega

theorem blk_wq (c : Dev nD) (t : Fin cfg0.N) (d h : Fin 1024) :
    (iblk m c 1 t : FVec Ideal S1024x1024 .bf16) (ix2 d h) = m ((c : Thread nD τ).loc main_arg1) (ix2 d h) := by
  obtain ⟨e0, e1⟩ := idx_wq t
  show V m c main_v1 (((cfg0.win 1).blk t).view.emb (ix2 d h)) = _
  refine (congrFun (V_wq m c) _).trans (congrArg _ (funext fun a => Fin.ext ?_))
  match a with
  | ⟨0, _⟩ => show win0_1.index t (0 : Fin 2) * 1024 + 1 * d.val = d.val; omega
  | ⟨1, _⟩ => show win0_1.index t (1 : Fin 2) * 1024 + 1 * h.val = h.val; omega

theorem blk_wk (c : Dev nD) (t : Fin cfg0.N) (d h : Fin 1024) :
    (iblk m c 3 t : FVec Ideal S1024x1024 .bf16) (ix2 d h) = m ((c : Thread nD τ).loc main_arg3) (ix2 d h) := by
  obtain ⟨e0, e1⟩ := idx_wk t
  show V m c main_v2 (((cfg0.win 3).blk t).view.emb (ix2 d h)) = _
  refine (congrFun (V_wk m c) _).trans (congrArg _ (funext fun a => Fin.ext ?_))
  match a with
  | ⟨0, _⟩ => show win0_3.index t (0 : Fin 2) * 1024 + 1 * d.val = d.val; omega
  | ⟨1, _⟩ => show win0_3.index t (1 : Fin 2) * 1024 + 1 * h.val = h.val; omega

theorem blk_wv (c : Dev nD) (t : Fin cfg0.N) (d h : Fin 1024) :
    (iblk m c 5 t : FVec Ideal S1024x1024 .bf16) (ix2 d h) = m ((c : Thread nD τ).loc main_arg5) (ix2 d h) := by
  obtain ⟨e0, e1⟩ := idx_wv t
  show V m c main_v3 (((cfg0.win 5).blk t).view.emb (ix2 d h)) = _
  refine (congrFun (V_wv m c) _).trans (congrArg _ (funext fun a => Fin.ext ?_))
  match a with
  | ⟨0, _⟩ => show win0_5.index t (0 : Fin 2) * 1024 + 1 * d.val = d.val; omega
  | ⟨1, _⟩ => show win0_5.index t (1 : Fin 2) * 1024 + 1 * h.val = h.val; omega

theorem blk_bq (c : Dev nD) (t : Fin cfg0.N) (h : Fin 1024) :
    (iblk m c 2 t : FVec Ideal S1024 .f32) (ix1 h) = m ((c : Thread nD τ).loc main_arg2) (ix1 h) := by
  have e0 := idx_bq t
  show V m c main_arg2 (((cfg0.win 2).blk t).view.emb (ix1 h)) = _
  refine (congrFun (V_main_arg2 m c) _).trans (congrArg _ (funext fun a => Fin.ext ?_))
  match a with
  | ⟨0, _⟩ => show win0_2.index t (0 : Fin 1) * 1024 + 1 * h.val = h.val; omega

theorem blk_bk (c : Dev nD) (t : Fin cfg0.N) (h : Fin 1024) :
    (iblk m c 4 t : FVec Ideal S1024 .f32) (ix1 h) = m ((c : Thread nD τ).loc main_arg4) (ix1 h) := by
  have e0 := idx_bk t
  show V m c main_arg4 (((cfg0.win 4).blk t).view.emb (ix1 h)) = _
  refine (congrFun (V_main_arg4 m c) _).trans (congrArg _ (funext fun a => Fin.ext ?_))
  match a with
  | ⟨0, _⟩ => show win0_4.index t (0 : Fin 1) * 1024 + 1 * h.val = h.val; omega

theorem blk_bv (c : Dev nD) (t : Fin cfg0.N) (h : Fin 1024) :
    (iblk m c 6 t : FVec Ideal S1024 .f32) (ix1 h) = m ((c : Thread nD τ).loc main_arg6) (ix1 h) := by
  have e0 := idx_bv t
  show V m c main_arg6 (((cfg0.win 6).blk t).view.emb (ix1 h)) = _
  refine (congrFun (V_main_arg6 m c) _).trans (congrArg _ (funext fun a => Fin.ext ?_))
  match a with
  | ⟨0, _⟩ => show win0_6.index t (0 : Fin 1) * 1024 + 1 * h.val = h.val; omega

/-- Row `r` of the query tile of point `t`, as a row of the batch. -/
def qRow (t : Fin cfg0.N) (r : Fin 512) : Fin 2048 := ⟨512 * (t.val % 4) + r.val, by have := r.isLt; omega⟩

/-- The query tile's rows are rows `512·(t mod 4) + r` of the batch. -/
theorem qTile_apply (c : Dev nD) (t : Fin cfg0.N) (r : Fin 512) (d : Fin 1024) :
    (qTile (grid0.coords t) (iblk m c 0 t) : FVec Ideal S1x512x1024 .bf16) (ix3 (0 : Fin 1) r d)
      = m ((c : Thread nD τ).loc main_arg0) (ix3 (batchOf t) (qRow t r) d) := by
  obtain ⟨e0, e1, e2⟩ := idx_x t
  obtain ⟨o0, o1, o2⟩ := off_q t
  show V m c main_v0 (((cfg0.win 0).blk t).view.emb
    ((Rect.unit (s := S1x2048x1024) (k0_off1 (grid0.coords t)) S1x512x1024.size (k0_off1_inb (grid0.coords t))).emb (ix3 (0 : Fin 1) r d))) = _
  refine (congrFun (V_x m c) _).trans (congrArg _ (funext fun a => Fin.ext ?_))
  match a with
  | ⟨0, _⟩ => show win0_0.index t (0 : Fin 3) * 1 + 1 * (k0_off1 (grid0.coords t) (0 : Fin 3) + 1 * 0) = t.val / 4; omega
  | ⟨1, _⟩ => show win0_0.index t (1 : Fin 3) * 2048 + 1 * (k0_off1 (grid0.coords t) (1 : Fin 3) + 1 * r.val) = 512 * (t.val % 4) + r.val; omega
  | ⟨2, _⟩ => show win0_0.index t (2 : Fin 3) * 1024 + 1 * (k0_off1 (grid0.coords t) (2 : Fin 3) + 1 * d.val) = d.val; omega

/-! ## The key and value matrices of a point's batch -/

/-- The key matrix computed from the blocks at point `t`. -/
def keyAt (c : Dev nD) (t : Fin cfg0.N) : FVec Ideal S2048x1024 .bf16 := k0_pay2 (iblk m c 0 t) (iblk m c 3 t) (iblk m c 4 t)
/-- The value matrix computed from the blocks at point `t`. -/
def valAt (c : Dev nD) (t : Fin cfg0.N) : FVec Ideal S2048x1024 .bf16 := k0_pay3 (iblk m c 0 t) (iblk m c 5 t) (iblk m c 6 t)

theorem keyAt_apply (c : Dev nD) (t : Fin cfg0.N) (k : Fin 2048) (h : Fin 1024) :
    keyAt m c t (ix2 k h) = proj (m ((c : Thread nD τ).loc main_arg0)) (m ((c : Thread nD τ).loc main_arg3)) (m ((c : Thread nD τ).loc main_arg4)) (batchOf t) k h := by
  unfold keyAt
  refine (pay2_apply (iblk m c 0 t) (iblk m c 3 t) (iblk m c 4 t) k h).trans ?_
  unfold proj
  exact congrArg₂ (· + ·) (Finset.sum_congr rfl fun d _ => congrArg₂ (· * ·) (blk_x m c t k d) (blk_wk m c t d h)) (blk_bk m c t h)

theorem valAt_apply (c : Dev nD) (t : Fin cfg0.N) (k : Fin 2048) (h : Fin 1024) :
    valAt m c t (ix2 k h) = proj (m ((c : Thread nD τ).loc main_arg0)) (m ((c : Thread nD τ).loc main_arg5)) (m ((c : Thread nD τ).loc main_arg6)) (batchOf t) k h := by
  unfold valAt
  refine (pay3_apply (iblk m c 0 t) (iblk m c 5 t) (iblk m c 6 t) k h).trans ?_
  unfold proj
  exact congrArg₂ (· + ·) (Finset.sum_congr rfl fun d _ => congrArg₂ (· * ·) (blk_x m c t k d) (blk_wv m c t d h)) (blk_bv m c t h)

/-! ## The scratch after any point holds its batch's key and value matrices -/

/-- The first point of the batch of point `t`. -/
def batchStart (t : Fin cfg0.N) : Fin cfg0.N := ⟨4 * (t.val / 4), by have := t.isLt; omega⟩

theorem batchOf_batchStart (t : Fin cfg0.N) : batchOf (batchStart t) = batchOf t :=
  Fin.ext (by show 4 * (t.val / 4) / 4 = t.val / 4; omega)

theorem scratch_eq (c : Dev nD) : ∀ (n : ℕ) (t : Fin cfg0.N), t.val = n →
    (outsAt0 m c t.val t.isLt).2.1 = keyAt m c (batchStart t) ∧ (outsAt0 m c t.val t.isLt).2.2 = valAt m c (batchStart t) := by
  have caseA : ∀ t : Fin cfg0.N, t.val % 4 = 0 →
      (outsAt0 m c t.val t.isLt).2.1 = keyAt m c (batchStart t) ∧ (outsAt0 m c t.val t.isLt).2.2 = valAt m c (batchStart t) := by
    intro t h0
    have hs : batchStart t = t := Fin.ext (by show 4 * (t.val / 4) = t.val; omega)
    rw [hs, outsAt0_A m c t h0]
    dsimp only
    rw [scrK_A, scrV_A]
    exact ⟨rfl, rfl⟩
  intro n
  induction n with
  | zero => intro t ht; exact caseA t (by omega)
  | succ n ih =>
    intro t ht
    by_cases h0 : t.val % 4 = 0
    · exact caseA t h0
    · have hp : t.val - 1 < cfg0.N := Nat.lt_of_le_of_lt (Nat.sub_le _ _) t.isLt
      have ih' := ih ⟨t.val - 1, hp⟩ (by show t.val - 1 = n; omega)
      have hs : batchStart t = batchStart ⟨t.val - 1, hp⟩ := Fin.ext (by show 4 * (t.val / 4) = 4 * ((t.val - 1) / 4); omega)
      rw [hs, outsAt0_B m c t h0]
      dsimp only
      unfold sout0_B_0 sout0_B_1
      exact ih'

/-- What the output's staging buffer holds after point `t`: the tile computed against the batch's key and value matrices. -/
theorem tile_eq (c : Dev nD) (t : Fin cfg0.N) :
    (outsAt0 m c t.val t.isLt).1
      = k0_pay4 (qTile (grid0.coords t) (iblk m c 0 t)) (iblk m c 1 t) (iblk m c 2 t) (keyAt m c (batchStart t)) (valAt m c (batchStart t)) := by
  by_cases h0 : t.val % 4 = 0
  · have hs : batchStart t = t := Fin.ext (by show 4 * (t.val / 4) = t.val; omega)
    rw [hs, outsAt0_A m c t h0]
    dsimp only
    rw [out_A]
    rfl
  · have hp : t.val - 1 < cfg0.N := Nat.lt_of_le_of_lt (Nat.sub_le _ _) t.isLt
    have ih := scratch_eq m c (t.val - 1) ⟨t.val - 1, hp⟩ rfl
    have hs : batchStart ⟨t.val - 1, hp⟩ = batchStart t := Fin.ext (by show 4 * ((t.val - 1) / 4) = 4 * (t.val / 4); omega)
    rw [hs] at ih
    rw [outsAt0_B m c t h0]
    dsimp only
    rw [out_B]
    exact congrArg₂ (fun a b => k0_pay4 (qTile (grid0.coords t) (iblk m c 0 t)) (iblk m c 1 t) (iblk m c 2 t) a b) ih.1 ih.2

/-! ## The tile written back at a point is a block of the attention array; the tiles cover the result -/

/-- Attention of the argument arrays. -/
abbrev result (c : Dev nD) : S8x2048x1024.Idx → EReal :=
  attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The output block of point `t` sits at batch `t / 4`, rows `512·(t mod 4) …`. -/
theorem emb_o (t : Fin cfg0.N) (u : Fin 1) (r : Fin 512) (h : Fin 1024) :
    ((cfg0.win 7).blk t).view.emb (ix3 u r h) = ix3 (batchOf t) (qRow t r) h := by
  obtain ⟨e0, e1, e2⟩ := idx_o t
  have hu := u.isLt
  refine funext fun a => Fin.ext ?_
  match a with
  | ⟨0, _⟩ => show win0_7.index t (0 : Fin 3) * 1 + 1 * u.val = t.val / 4; omega
  | ⟨1, _⟩ => show win0_7.index t (1 : Fin 3) * 512 + 1 * r.val = 512 * (t.val % 4) + r.val; omega
  | ⟨2, _⟩ => show win0_7.index t (2 : Fin 3) * 1024 + 1 * h.val = h.val; omega

/-- WHAT POINT `t` WRITES BACK is block `t` of the attention array. -/
theorem flushed_eq (c : Dev nD) (t : Fin cfg0.N) :
    (dats m 0 c).flushed 7 t = ((cfg0.win 7).blk t).view.read (Elt Ideal) (result m c) := by
  rw [Value.flushed7, tile_eq]
  funext j
  obtain ⟨u, r, h, rfl⟩ : ∃ (u : Fin 1) (r : Fin 512) (h : Fin 1024), j = ix3 u r h := ⟨j 0, j 1, j 2, eq_ix3 j⟩
  show k0_pay4 (F := Ideal) (qTile (grid0.coords t) (iblk m c 0 t)) (iblk m c 1 t) (iblk m c 2 t) (keyAt m c (batchStart t))
    (valAt m c (batchStart t)) (ix3 u r h) = result m c (((cfg0.win 7).blk t).view.emb (ix3 u r h))
  rw [emb_o]
  refine (pay4_apply (qTile (grid0.coords t) (iblk m c 0 t)) (iblk m c 1 t) (iblk m c 2 t) (keyAt m c (batchStart t))
    (valAt m c (batchStart t)) u r h).trans ?_
  show _ = attnDeferred (fun k => score (m ((c : Thread nD τ).loc main_arg0)) (m ((c : Thread nD τ).loc main_arg1)) (m ((c : Thread nD τ).loc main_arg2)) (m ((c : Thread nD τ).loc main_arg3)) (m ((c : Thread nD τ).loc main_arg4)) (batchOf t) (qRow t r) k
      * Ideal.ofBits .f32 0x3D000000#32) (fun k => proj (m ((c : Thread nD τ).loc main_arg0)) (m ((c : Thread nD τ).loc main_arg5)) (m ((c : Thread nD τ).loc main_arg6)) (batchOf t) k h)
  refine congrArg₂ attnDeferred (funext fun k => congrArg (· * Ideal.ofBits .f32 0x3D000000#32) ?_) (funext fun k => ?_)
  · unfold score
    refine Finset.sum_congr rfl fun h' _ => congrArg₂ (· * ·) ?_ ?_
    · unfold proj
      exact congrArg₂ (· + ·) (Finset.sum_congr rfl fun d _ => congrArg₂ (· * ·) (qTile_apply m c t r d) (blk_wq m c t d h')) (blk_bq m c t h')
    · exact (keyAt_apply m c (batchStart t) k h').trans (by rw [batchOf_batchStart])
  · exact (valAt_apply m c (batchStart t) k h).trans (by rw [batchOf_batchStart])

/-- An index of the result is in point `t`'s block iff each coordinate is in the block's range. -/
theorem mem_blk (t : Fin cfg0.N) (i : S8x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v4).slice (win0_7.rect t)).set ↔ _
  rw [View.set_slice_whole, Rect.mem_set_unit]
  exact Iff.rfl

/-- Every index of the result is in the block of the point of its batch and its row's tile. -/
theorem cover (c : Dev nD) (i : S8x2048x1024.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  have hN : cfg0.N = 32 := N_0
  refine ⟨⟨4 * (i 0).val + (i 1).val / 512, by omega⟩, flush0_7 _, ?_⟩
  rw [mem_blk]
  obtain ⟨e0, e1, e2⟩ := idx_o ⟨4 * (i 0).val + (i 1).val / 512, by omega⟩
  intro a
  match a with
  | ⟨0, _⟩ =>
    show win0_7.index _ (0 : Fin 3) * 1 ≤ (i 0).val ∧ (i 0).val < win0_7.index _ (0 : Fin 3) * 1 + 1
    rw [e0]; show (4 * (i 0).val + (i 1).val / 512) / 4 * 1 ≤ (i 0).val ∧ (i 0).val < (4 * (i 0).val + (i 1).val / 512) / 4 * 1 + 1; omega
  | ⟨1, _⟩ =>
    show win0_7.index _ (1 : Fin 3) * 512 ≤ (i 1).val ∧ (i 1).val < win0_7.index _ (1 : Fin 3) * 512 + 512
    rw [e1]; show (4 * (i 0).val + (i 1).val / 512) % 4 * 512 ≤ (i 1).val ∧ (i 1).val < (4 * (i 0).val + (i 1).val / 512) % 4 * 512 + 512; omega
  | ⟨2, _⟩ =>
    show win0_7.index _ (2 : Fin 3) * 1024 ≤ (i 2).val ∧ (i 2).val < win0_7.index _ (2 : Fin 3) * 1024 + 1024
    rw [e2]; omega

/-- The result array after the run is attention of the argument arrays. -/
theorem final (c : Dev nD) : (dats m 0 c).arrAt 7 cfg0.N = result m c :=
  (dats m 0 c).arrAt_eq_of_cover 7 (result m c) (fun t _ => flushed_eq m c t) (cover c)

/-- The run, read: the result at attention of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.AttnValue

end
-- ==== Proof.LibLastAxisMax.lean ====
/-
  The host's maximum over the LAST axis of an `[n, a, b]` array, read at an index written by its coordinates.

  A softmax over the last axis takes, for each `(k, p)`, the maximum of the `b` entries `(k, p, c)`. At the ideal values
  the host's reduction is the fold of `max`, from the initial value, over `c : Fin b` of those entries: no order of
  evaluation is left in it. Nothing here mentions a program.
-/
import Idealize.ShloMosaic.PureOps.Ideal.Laws
import Idealize.ShloMosaic.Lib.Pipeline.Value
import Idealize.ShloMosaic.Lib.ValueIdx

namespace Cert.LastAxisMax

open Idealize.ShloMosaic Idealize.ShloMosaic.ValueIdx

variable {φ : FTy}

/-- The host's maximum over the LAST axis of an `[n, a, b]` array, at `(k, p)`: the fold of `max`, from the initial value,
    over `c : Fin b` of the entries `(k, p, c)`. -/
theorem hostLastMax_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.maximumf (F := Ideal) (φ := φ)) x init h' hu (ix2 k p)
      = (Finset.univ : Finset (Fin b)).fold max (init (Shape.Idx.first hu)) (fun c => x (ix3 k p c)) := by
  refine (Host.reduce_eq_fold_single (FloatOps.maximumf (F := Ideal) (φ := φ)) x init h' h hu (ix2 k p)).trans ?_
  show (Finset.univ : Finset (Fin b)).fold max (init (Shape.Idx.first hu)) (fun c => x (h.lift (ix2 k p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl | ⟨2, _⟩ => rfl))

end Cert.LastAxisMax
-- ==== Proof.RefValue.lean ====
/-
  The reference's result at the ideal values is attention with the weights normalised first.

  The reference projects the whole batch (`Q`, `K`, `V`), takes all scores as one batched product divided by `√1024`,
  takes the softmax over the last axis — the maximum from `-∞` (once more maximised against `-∞`, which changes nothing),
  the exponentials of the differences, their sum from `0`, every exponential divided by the sum — and contracts the
  weights with `V`. Read index by index that is `attentionNormalised` of the argument arrays.
-/
import proofs.«116164_j44032004718713_2_alg».proof.Proof.Gen.ReferenceIdeal.Read
import proofs.«116164_j44032004718713_2_alg».proof.Proof.AttnSpec
import proofs.«116164_j44032004718713_2_alg».proof.Proof.LibLastAxisMax

noncomputable section

namespace Cert.ReferenceIdeal.AttnRef

open Cert.ReferenceIdeal Cert.ReferenceIdeal.Gen Cert.ReferenceIdeal.Read Idealize.ShloMosaic Idealize.ShloMosaic.ValueIdx
open Cert.AttnSpec Cert.SoftmaxRow Cert.LastAxisMax

variable (x0 : FVec Ideal S8x2048x1024 .f32) (x1 : FVec Ideal S1024x1024 .f32) (x2 : FVec Ideal S1024 .f32)
  (x3 : FVec Ideal S1024x1024 .f32) (x4 : FVec Ideal S1024 .f32) (x5 : FVec Ideal S1024x1024 .f32) (x6 : FVec Ideal S1024 .f32)

/-! ## The reference's composed index maps at coordinates -/

theorem lidxQ (b : Fin 8) (s : Fin 2048) (h k : Fin 1024) : lidx_main_v0 (ix3 b s h) k = ix3 b s k :=
  funext fun a => by match a with | ⟨0, _⟩ => rfl | ⟨1, _⟩ => rfl | ⟨2, _⟩ => rfl
theorem ridxQ (b : Fin 8) (s : Fin 2048) (h k : Fin 1024) : ridx_main_v0 (ix3 b s h) k = ix2 k h :=
  funext fun a => by match a with | ⟨0, _⟩ => rfl | ⟨1, _⟩ => rfl
theorem bidxQ (b : Fin 8) (s : Fin 2048) (h : Fin 1024) : idx_main_v1 (idx_main_v2 (ix3 b s h)) = ix1 h :=
  funext fun a => by match a with | ⟨0, _⟩ => rfl
theorem lidxK (b : Fin 8) (s : Fin 2048) (h k : Fin 1024) : lidx_main_v4 (ix3 b s h) k = ix3 b s k :=
  funext fun a => by match a with | ⟨0, _⟩ => rfl | ⟨1, _⟩ => rfl | ⟨2, _⟩ => rfl
theorem ridxK (b : Fin 8) (s : Fin 2048) (h k : Fin 1024) : ridx_main_v4 (ix3 b s h) k = ix2 k h :=
  funext fun a => by match a with | ⟨0, _⟩ => rfl | ⟨1, _⟩ => rfl
theorem bidxK (b : Fin 8) (s : Fin 2048) (h : Fin 1024) : idx_main_v5 (idx_main_v6 (ix3 b s h)) = ix1 h :=
  funext fun a => by match a with | ⟨0, _⟩ => rfl
theorem lidxV (b : Fin 8) (s : Fin 2048) (h k : Fin 1024) : lidx_main_v8 (ix3 b s h) k = ix3 b s k :=
  funext fun a => by match a with | ⟨0, _⟩ => rfl | ⟨1, _⟩ => rfl | ⟨2, _⟩ => rfl
theorem ridxV (b : Fin 8) (s : Fin 2048) (h k : Fin 1024) : ridx_main_v8 (ix3 b s h) k = ix2 k h :=
  funext fun a => by match a with | ⟨0, _⟩ => rfl | ⟨1, _⟩ => rfl
theorem bidxV (b : Fin 8) (s : Fin 2048) (h : Fin 1024) : idx_main_v9 (idx_main_v10 (ix3 b s h)) = ix1 h :=
  funext fun a => by match a with | ⟨0, _⟩ => rfl
theorem lidxS (b : Fin 8) (q k : Fin 2048) (h : Fin 1024) : lidx_main_v13 (ix3 b q k) h = ix3 b q h :=
  funext fun a => by match a with | ⟨0, _⟩ => rfl | ⟨1, _⟩ => rfl | ⟨2, _⟩ => rfl
theorem ridxS (b : Fin 8) (q k : Fin 2048) (h : Fin 1024) : ridx_main_v13 (ix3 b q k) h = ix3 b k h :=
  funext fun a => by match a with | ⟨0, _⟩ => rfl | ⟨1, _⟩ => rfl | ⟨2, _⟩ => rfl
theorem idxM (b : Fin 8) (q k : Fin 2048) : idx_main_v19 (idx_main_v20 (ix3 b q k)) = ix2 b q :=
  funext fun a => by match a with | ⟨0, _⟩ => rfl | ⟨1, _⟩ => rfl
theorem idxL (b : Fin 8) (q k : Fin 2048) : idx_main_v24 (idx_main_v25 (ix3 b q k)) = ix2 b q :=
  funext fun a => by match a with | ⟨0, _⟩ => rfl | ⟨1, _⟩ => rfl
theorem idxSum (b : Fin 8) (q k : Fin 2048) : idx_main_v23 (ix2 b q) k = ix3 b q k :=
  funext fun a => by match a with | ⟨0, _⟩ => rfl | ⟨1, _⟩ => rfl | ⟨2, _⟩ => rfl
theorem lidxO (b : Fin 8) (q : Fin 2048) (h : Fin 1024) (k : Fin 2048) : lidx_main_v27 (ix3 b q h) k = ix3 b q k :=
  funext fun a => by match a with | ⟨0, _⟩ => rfl | ⟨1, _⟩ => rfl | ⟨2, _⟩ => rfl
theorem ridxO (b : Fin 8) (q : Fin 2048) (h : Fin 1024) (k : Fin 2048) : ridx_main_v27 (ix3 b q h) k = ix3 b k h :=
  funext fun a => by match a with | ⟨0, _⟩ => rfl | ⟨1, _⟩ => rfl | ⟨2, _⟩ => rfl

/-- A projection of the whole batch, `x·W + b`, at `(b, s, h)`. -/
theorem q_apply (b : Fin 8) (s : Fin 2048) (h : Fin 1024) : val_main_v3 (F := Ideal) x0 x1 x2 (ix3 b s h) = proj x0 x1 x2 b s h := by
  rw [val_main_v3_apply, val_main_v0_apply, val_main_v2_apply, val_main_v1_apply, bidxQ]
  simp only [lidxQ, ridxQ]
  rfl
theorem k_apply (b : Fin 8) (s : Fin 2048) (h : Fin 1024) : val_main_v7 (F := Ideal) x0 x3 x4 (ix3 b s h) = proj x0 x3 x4 b s h := by
  rw [val_main_v7_apply, val_main_v4_apply, val_main_v6_apply, val_main_v5_apply, bidxK]
  simp only [lidxK, ridxK]
  rfl
theorem v_apply (b : Fin 8) (s : Fin 2048) (h : Fin 1024) : val_main_v11 (F := Ideal) x0 x5 x6 (ix3 b s h) = proj x0 x5 x6 b s h := by
  rw [val_main_v11_apply, val_main_v8_apply, val_main_v10_apply, val_main_v9_apply, bidxV]
  simp only [lidxV, ridxV]
  rfl

/-- The scaled score of query `q` against key `k`. -/
def sc (b : Fin 8) (q k : Fin 2048) : EReal :=
  Ideal.div (score x0 x1 x2 x3 x4 b q k) (Ideal.sqrt (Ideal.ofBits .f32 0x44800000#32))

theorem s_apply (b : Fin 8) (q k : Fin 2048) : val_main_v15 (F := Ideal) x0 x1 x2 x3 x4 (ix3 b q k) = sc x0 x1 x2 x3 x4 b q k := by
  rw [val_main_v15_apply, val_main_v13_apply, val_main_v14_apply, val_main_v12_apply, val_main_cst_apply]
  simp only [lidxS, ridxS]
  unfold sc score
  refine congrArg (fun z => Ideal.div z _) (Finset.sum_congr rfl fun h _ => ?_)
  exact congrArg₂ (· * ·) (q_apply x0 x1 x2 b q h) (k_apply x0 x3 x4 b k h)

/-- The row maximum, from `-∞`. -/
theorem m_apply (b : Fin 8) (q : Fin 2048) :
    val_main_v18 (F := Ideal) x0 x1 x2 x3 x4 (ix2 b q) = rowMax (fun k => sc x0 x1 x2 x3 x4 b q k) := by
  rw [val_main_v18_apply, val_main_v17_apply, val_main_cst_1_apply]
  unfold val_main_v16
  refine (congrArg (max (Ideal.ofBits .f32 0xFF800000#32))
    (hostLastMax_apply (val_main_v15 (F := Ideal) x0 x1 x2 x3 x4) (val_main_cst_0 (F := Ideal)) reducesTo_S8x2048x2048_S8x2048_d2
      (by decide) h_S_ b q)).trans ?_
  rw [val_main_cst_0_apply]
  show max (Ideal.ofBits .f32 0xFF800000#32) _ = _
  rw [ofBits_negInf, max_eq_right bot_le]
  unfold rowMax
  exact congrArg (fun f => (Finset.univ : Finset (Fin 2048)).fold max ⊥ f) (funext fun k => s_apply x0 x1 x2 x3 x4 b q k)

/-- The unnormalised weight. -/
theorem p_apply (b : Fin 8) (q k : Fin 2048) :
    val_main_v22 (F := Ideal) x0 x1 x2 x3 x4 (ix3 b q k) = rowWt (fun k => sc x0 x1 x2 x3 x4 b q k) k := by
  rw [val_main_v22_apply, val_main_v21_apply, val_main_v20_apply, val_main_v19_apply, idxM]
  unfold rowWt
  exact congrArg₂ (fun a z => Ideal.exp (a - z)) (s_apply x0 x1 x2 x3 x4 b q k) (m_apply x0 x1 x2 x3 x4 b q)

/-- The normaliser. -/
theorem l_apply (b : Fin 8) (q : Fin 2048) :
    val_main_v23 (F := Ideal) x0 x1 x2 x3 x4 (ix2 b q) = rowDen (fun k => sc x0 x1 x2 x3 x4 b q k) := by
  rw [val_main_v23_apply, val_main_cst_2_apply]
  show Ideal.ofBits .f32 0x00000000#32 + _ = _
  rw [Ideal.ofBits_zero_f32, zero_add]
  unfold rowDen
  simp only [idxSum]
  exact Finset.sum_congr rfl fun k _ => p_apply x0 x1 x2 x3 x4 b q k

/-- The normalised weight. -/
theorem w_apply (b : Fin 8) (q k : Fin 2048) :
    val_main_v26 (F := Ideal) x0 x1 x2 x3 x4 (ix3 b q k)
      = Ideal.div (rowWt (fun k => sc x0 x1 x2 x3 x4 b q k) k) (rowDen (fun k => sc x0 x1 x2 x3 x4 b q k)) := by
  rw [val_main_v26_apply, val_main_v25_apply, val_main_v24_apply, idxL]
  exact congrArg₂ Ideal.div (p_apply x0 x1 x2 x3 x4 b q k) (l_apply x0 x1 x2 x3 x4 b q)

/-- THE REFERENCE'S RESULT is attention with the weights normalised first. -/
theorem result_eq : val_main_v27 (F := Ideal) x0 x1 x2 x3 x4 x5 x6 = attentionNormalised x0 x1 x2 x3 x4 x5 x6 := by
  funext i
  obtain ⟨b, q, h, rfl⟩ : ∃ (b : Fin 8) (q : Fin 2048) (h : Fin 1024), i = ix3 b q h := ⟨i 0, i 1, i 2, eq_ix3 i⟩
  rw [val_main_v27_apply]
  simp only [lidxO, ridxO]
  unfold attentionNormalised attnNormalised
  exact Finset.sum_congr rfl fun k _ => congrArg₂ (· * ·) (w_apply x0 x1 x2 x3 x4 b q k) (v_apply x0 x5 x6 b k h)

end Cert.ReferenceIdeal.AttnRef

end
-- ==== Proof.Finite.lean ====
/-
  From the precondition to real numbers.

  The precondition says, array by array, that every entry's absolute value is below `+∞` (a reduction by `and` of the
  comparisons, all seven conjoined). An extended real whose absolute value `max x (-x)` is below `⊤` is neither `⊤` nor
  `⊥`, that is, it is a real number.
-/
import proofs.«116164_j44032004718713_2_alg».proof.Pre_finite_inputs
import proofs.«116164_j44032004718713_2_alg».proof.Proof.LibSoftmaxRow
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx Cert.SoftmaxRow

instance : Subsingleton S_.Idx := ⟨fun a b => funext fun d => d.elim0⟩

/-- The pattern of `+∞` is the top of the extended reals. -/
theorem ofBits_posInf : Ideal.ofBits .f32 0x7F800000#32 = ⊤ := by
  simp [Ideal.ofBits, Ideal.ieee]

/-- An extended real whose absolute value compares below `+∞` is a real number. -/
theorem isReal_of_abs_lt (x : EReal) (h : Ideal.cmp .olt (max x (-x)) (Ideal.ofBits .f32 0x7F800000#32) = 1#1) : IsReal x := by
  rw [ofBits_posInf] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

variable [Facts]

/-- One array's conjunct: the reduction by `and` of its comparisons is 1, so every entry is a real. -/
theorem isReal_of_all {s : Shape} {axes : List (Fin s.rank)} (x : FVec Ideal s .f32) (bc : S_.BroadcastsInDim s (![] : Fin 0 → Fin s.rank))
    (hr : s.ReducesTo axes S_) (hu : 0 < S_.numel)
    (e : Host.reduce IntOp.andi (cmpf .olt (Host.absf x) (broadcastInDim s ![] bc (constant (F := Ideal) S_ .f32 0x7F800000#32)))
      (constantI S_ 1 1#1) hr hu ix0 = 1#1) (i : s.Idx) : IsReal (x i) :=
  isReal_of_abs_lt (x i) (Host.reduce_andi_all _ _ hr hu ix0 e i)

/-- THE PRECONDITION, READ: every entry of every argument array is a real number. -/
theorem finite_of_pre (a0 : FVec Ideal S8x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 := congrFun h ix0
  dsimp only [fn, fn_part1] at h0
  have split : ∀ (p q : IVec S_ 1), andi p q ix0 = 1#1 → p ix0 = 1#1 ∧ q ix0 = 1#1 := fun p q e => IntOp.andi_eq_one.mp e
  obtain ⟨h0, e6⟩ := split _ _ h0
  obtain ⟨h0, e5⟩ := split _ _ h0
  obtain ⟨h0, e4⟩ := split _ _ h0
  obtain ⟨h0, e3⟩ := split _ _ h0
  obtain ⟨h0, e2⟩ := split _ _ h0
  obtain ⟨e0, e1⟩ := split _ _ h0
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6⟩

end Cert.Pre_finite_inputs.Finite

end
-- ==== Proof.lean ====
/-
  Fused single-head self-attention on [8, 2048, 1024] inputs against its jnp reference, over the extended reals.

  Both programs compute, for every batch, `softmax(Q·Kᵀ / √1024)·V` with `Q = x·Wq + bq`, `K = x·Wk + bk`, `V = x·Wv + bv`.
  The kernel works tile by tile: at each batch's first tile it computes the batch's `K` and `V` once and keeps them for
  the batch's other three tiles; per tile it multiplies the scores by `1/32`, takes the row maxima and the exponentials,
  contracts the unnormalised weights with `V` and divides each output row once by the row's sum of weights. The reference
  divides the scores by `√1024` and divides every weight by its row's sum before contracting with `V`.
  `√1024 = 32` exactly, and a quotient by a nonzero real is a product with its reciprocal on every extended real; the
  normaliser moves across the weighted sum because, under the precondition (every input finite), every score and value
  is a real number, every weight a positive real, and the normaliser a positive real. Changes of float format are the
  identity at the ideal values, and the order and tiling of the sums leave no trace there.

  The three frames are the generated ones (the reference's is its generated run with the result dropped); the
  idealization rewrote nothing, so `preserves` is `True`.
-/
import proofs.«116164_j44032004718713_2_alg».proof.Defs
import proofs.«116164_j44032004718713_2_alg».proof.Proof.Gen.Kernel
import proofs.«116164_j44032004718713_2_alg».proof.Proof.Gen.Kernel.Skeleton
import proofs.«116164_j44032004718713_2_alg».proof.Proof.Gen.Kernel.Launch
import proofs.«116164_j44032004718713_2_alg».proof.Proof.Gen.Kernel.Points
import proofs.«116164_j44032004718713_2_alg».proof.Proof.Gen.Kernel.Frame
import proofs.«116164_j44032004718713_2_alg».proof.Proof.Gen.KernelIdeal
import proofs.«116164_j44032004718713_2_alg».proof.Proof.Gen.KernelIdeal.Skeleton
import proofs.«116164_j44032004718713_2_alg».proof.Proof.Gen.KernelIdeal.Launch
import proofs.«116164_j44032004718713_2_alg».proof.Proof.Gen.KernelIdeal.Points
import proofs.«116164_j44032004718713_2_alg».proof.Proof.Gen.KernelIdeal.Frame
import proofs.«116164_j44032004718713_2_alg».proof.Proof.Gen.ReferenceIdeal
import proofs.«116164_j44032004718713_2_alg».proof.Proof.Gen.Pre_finite_inputs
import proofs.«116164_j44032004718713_2_alg».proof.Proof.Gen.KernelIdeal.Value
import proofs.«116164_j44032004718713_2_alg».proof.Proof.Gen.ReferenceIdeal.Run
import proofs.«116164_j44032004718713_2_alg».proof.Proof.Gen.ReferenceIdeal.Read
import proofs.«116164_j44032004718713_2_alg».proof.Proof.KernelValue
import proofs.«116164_j44032004718713_2_alg».proof.Proof.RefValue
import proofs.«116164_j44032004718713_2_alg».proof.Proof.Finite
import Idealize.ShloMosaic.Adequacy
import Idealize.ShloMosaic.Init

noncomputable section

namespace Cert.Proof

open Idealize.ShloMosaic Idealize.SL.Sem

/-- At the ideal values the kernel's result array ends at attention of its arguments (normaliser divided out once), the
    reference's at attention with the weights normalised first, of arguments that agree; with finite inputs these are
    one array. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.AttnRef.result_eq]
  obtain ⟨e0, e1, e2, e3, e4, e5, e6⟩ := hagree c
  rw [e0, e1, e2, e3, e4, e5, e6]
  obtain ⟨f0, f1, f2, f3, f4, f5, f6⟩ := Cert.Pre_finite_inputs.Finite.finite_of_pre _ _ _ _ _ _ _ (hpre c)
  exact Cert.AttnSpec.attentionNormalised_eq_attention f0 f1 f2 f3 f4 f5 f6

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
